-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S128x10x5 : Shape := ⟨3, ![128, 10, 5]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel

variable [Facts]

def fn {F : FTy → Type} [FloatOps F] (main_arg0 : IVec S128x4096 32) (main_arg1 : FVec F S128x4096 .f32) (main_arg2 : IVec S128x10x5 32) : IVec S_ 1 :=
  let main_v0 : FVec F S128x4096 .f32 := Host.absf main_arg1
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  main_v3
-- ==== Kernel.lean ====
abbrev S128x4096 : Shape := ⟨2, ![128, 4096]⟩
abbrev S128x10x5 : Shape := ⟨3, ![128, 10, 5]⟩
abbrev S128x10 : Shape := ⟨2, ![128, 10]⟩
abbrev S32x4096 : Shape := ⟨2, ![32, 4096]⟩
abbrev S32x10x5 : Shape := ⟨3, ![32, 10, 5]⟩
abbrev S32x10 : Shape := ⟨2, ![32, 10]⟩
abbrev S32x1 : Shape := ⟨2, ![32, 1]⟩
abbrev S32x1x1 : Shape := ⟨3, ![32, 1, 1]⟩
abbrev S32 : Shape := ⟨1, ![32]⟩

abbrev nBuf : Space → Nat
  | .hbm => 4
  | .vmem => 8
  | .smem => 0
  | _ => 0

abbrev bufTy : (tb : Table) → Fin (tcTables nBuf tb) → BufTy
  | .hbm, ⟨0, _⟩ => ⟨S128x4096, .i32⟩
  | .hbm, ⟨1, _⟩ => ⟨S128x4096, .f32⟩
  | .hbm, ⟨2, _⟩ => ⟨S128x10x5, .i32⟩
  | .hbm, ⟨3, _⟩ => ⟨S128x10, .f32⟩
  | .local _ .vmem, ⟨0, _⟩ => ⟨S32x4096, .i32⟩
  | .local _ .vmem, ⟨1, _⟩ => ⟨S32x4096, .i32⟩
  | .local _ .vmem, ⟨2, _⟩ => ⟨S32x4096, .f32⟩
  | .local _ .vmem, ⟨3, _⟩ => ⟨S32x4096, .f32⟩
  | .local _ .vmem, ⟨4, _⟩ => ⟨S32x10x5, .i32⟩
  | .local _ .vmem, ⟨5, _⟩ => ⟨S32x10x5, .i32⟩
  | .local _ .vmem, ⟨6, _⟩ => ⟨S32x10, .f32⟩
  | .local _ .vmem, ⟨7, _⟩ => ⟨S32x10, .f32⟩
  | _, _ => ⟨S128x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x10x5 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x4096_S32x4096_0_0 : ∀ a, (![0, 0] : Fin 2 → Nat) a + S32x4096.size a ≤ S32x4096.size a
  h_S32x4096 : 0 < S32x4096.numel
  inb_S32x10x5_S32x10x5_0_0_0 : ∀ a, (![0, 0, 0] : Fin 3 → Nat) a + S32x10x5.size a ≤ S32x10x5.size a
  h_S32x10x5 : 0 < S32x10x5.numel
  slices_S32x10x5_o0_0_0_S32x1x1 : S32x10x5.Slices ![0, 0, 0] S32x1x1
  shapeCasts_S32x1x1_S32 : S32x1x1.ShapeCasts S32
  shapeCasts_S32_S32x1 : S32.ShapeCasts S32x1
  broadcasts_S32x1_S32x4096 : S32x1.Broadcasts S32x4096
  reduces_S32x4096_S32 : S32x4096.Reduces [1] S32
  natLt_1_32 : 1 < 32
  slices_S32x10x5_o0_0_1_S32x1x1 : S32x10x5.Slices ![0, 0, 1] S32x1x1
  slices_S32x10x5_o0_0_2_S32x1x1 : S32x10x5.Slices ![0, 0, 2] S32x1x1
  slices_S32x10x5_o0_0_3_S32x1x1 : S32x10x5.Slices ![0, 0, 3] S32x1x1
  slices_S32x10x5_o0_0_4_S32x1x1 : S32x10x5.Slices ![0, 0, 4] S32x1x1
  slices_S32x10x5_o0_1_0_S32x1x1 : S32x10x5.Slices ![0, 1, 0] S32x1x1
  slices_S32x10x5_o0_1_1_S32x1x1 : S32x10x5.Slices ![0, 1, 1] S32x1x1
  slices_S32x10x5_o0_1_2_S32x1x1 : S32x10x5.Slices ![0, 1, 2] S32x1x1
  slices_S32x10x5_o0_1_3_S32x1x1 : S32x10x5.Slices ![0, 1, 3] S32x1x1
  slices_S32x10x5_o0_1_4_S32x1x1 : S32x10x5.Slices ![0, 1, 4] S32x1x1
  slices_S32x10x5_o0_2_0_S32x1x1 : S32x10x5.Slices ![0, 2, 0] S32x1x1
  slices_S32x10x5_o0_2_1_S32x1x1 : S32x10x5.Slices ![0, 2, 1] S32x1x1
  slices_S32x10x5_o0_2_2_S32x1x1 : S32x10x5.Slices ![0, 2, 2] S32x1x1
  slices_S32x10x5_o0_2_3_S32x1x1 : S32x10x5.Slices ![0, 2, 3] S32x1x1
  slices_S32x10x5_o0_2_4_S32x1x1 : S32x10x5.Slices ![0, 2, 4] S32x1x1
  slices_S32x10x5_o0_3_0_S32x1x1 : S32x10x5.Slices ![0, 3, 0] S32x1x1
  slices_S32x10x5_o0_3_1_S32x1x1 : S32x10x5.Slices ![0, 3, 1] S32x1x1
  slices_S32x10x5_o0_3_2_S32x1x1 : S32x10x5.Slices ![0, 3, 2] S32x1x1
  slices_S32x10x5_o0_3_3_S32x1x1 : S32x10x5.Slices ![0, 3, 3] S32x1x1
  slices_S32x10x5_o0_3_4_S32x1x1 : S32x10x5.Slices ![0, 3, 4] S32x1x1
  slices_S32x10x5_o0_4_0_S32x1x1 : S32x10x5.Slices ![0, 4, 0] S32x1x1
  slices_S32x10x5_o0_4_1_S32x1x1 : S32x10x5.Slices ![0, 4, 1] S32x1x1
  slices_S32x10x5_o0_4_2_S32x1x1 : S32x10x5.Slices ![0, 4, 2] S32x1x1
  slices_S32x10x5_o0_4_3_S32x1x1 : S32x10x5.Slices ![0, 4, 3] S32x1x1
  slices_S32x10x5_o0_4_4_S32x1x1 : S32x10x5.Slices ![0, 4, 4] S32x1x1
  slices_S32x10x5_o0_5_0_S32x1x1 : S32x10x5.Slices ![0, 5, 0] S32x1x1
  slices_S32x10x5_o0_5_1_S32x1x1 : S32x10x5.Slices ![0, 5, 1] S32x1x1
  slices_S32x10x5_o0_5_2_S32x1x1 : S32x10x5.Slices ![0, 5, 2] S32x1x1
  slices_S32x10x5_o0_5_3_S32x1x1 : S32x10x5.Slices ![0, 5, 3] S32x1x1
  slices_S32x10x5_o0_5_4_S32x1x1 : S32x10x5.Slices ![0, 5, 4] S32x1x1
  slices_S32x10x5_o0_6_0_S32x1x1 : S32x10x5.Slices ![0, 6, 0] S32x1x1
  slices_S32x10x5_o0_6_1_S32x1x1 : S32x10x5.Slices ![0, 6, 1] S32x1x1
  slices_S32x10x5_o0_6_2_S32x1x1 : S32x10x5.Slices ![0, 6, 2] S32x1x1
  slices_S32x10x5_o0_6_3_S32x1x1 : S32x10x5.Slices ![0, 6, 3] S32x1x1
  slices_S32x10x5_o0_6_4_S32x1x1 : S32x10x5.Slices ![0, 6, 4] S32x1x1
  slices_S32x10x5_o0_7_0_S32x1x1 : S32x10x5.Slices ![0, 7, 0] S32x1x1
  slices_S32x10x5_o0_7_1_S32x1x1 : S32x10x5.Slices ![0, 7, 1] S32x1x1
  slices_S32x10x5_o0_7_2_S32x1x1 : S32x10x5.Slices ![0, 7, 2] S32x1x1
  slices_S32x10x5_o0_7_3_S32x1x1 : S32x10x5.Slices ![0, 7, 3] S32x1x1
  slices_S32x10x5_o0_7_4_S32x1x1 : S32x10x5.Slices ![0, 7, 4] S32x1x1
  slices_S32x10x5_o0_8_0_S32x1x1 : S32x10x5.Slices ![0, 8, 0] S32x1x1
  slices_S32x10x5_o0_8_1_S32x1x1 : S32x10x5.Slices ![0, 8, 1] S32x1x1
  slices_S32x10x5_o0_8_2_S32x1x1 : S32x10x5.Slices ![0, 8, 2] S32x1x1
  slices_S32x10x5_o0_8_3_S32x1x1 : S32x10x5.Slices ![0, 8, 3] S32x1x1
  slices_S32x10x5_o0_8_4_S32x1x1 : S32x10x5.Slices ![0, 8, 4] S32x1x1
  slices_S32x10x5_o0_9_0_S32x1x1 : S32x10x5.Slices ![0, 9, 0] S32x1x1
  slices_S32x10x5_o0_9_1_S32x1x1 : S32x10x5.Slices ![0, 9, 1] S32x1x1
  slices_S32x10x5_o0_9_2_S32x1x1 : S32x10x5.Slices ![0, 9, 2] S32x1x1
  slices_S32x10x5_o0_9_3_S32x1x1 : S32x10x5.Slices ![0, 9, 3] S32x1x1
  slices_S32x10x5_o0_9_4_S32x1x1 : S32x10x5.Slices ![0, 9, 4] S32x1x1
  concatenates_S32x1_S32x1_S32x1_S32x1_S32x1_S32x1_S32x1_S32x1_S32x1_S32x1_S32x10_d1 : Shape.Concatenates [S32x1, S32x1, S32x1, S32x1, S32x1, S32x1, S32x1, S32x1, S32x1, S32x1] S32x10 1
  inb_S32x10_S32x10_0_0 : ∀ a, (![0, 0] : Fin 2 → Nat) a + S32x10.size a ≤ S32x10.size a
  h_S32x10 : 0 < S32x10.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S128x4096.size a
  hwx0_0 : ∀ i : grid0.Coords, EltTy.bits .i32 = 32 ∨ (Rect.block (s := S128x4096) S32x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S128x4096.size a
  hwx0_1 : ∀ i : grid0.Coords, EltTy.bits .f32 = 32 ∨ (Rect.block (s := S128x4096) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x10x5.size a ≤ S128x10x5.size a
  hwx0_2 : ∀ i : grid0.Coords, EltTy.bits .i32 = 32 ∨ (Rect.block (s := S128x10x5) S32x10x5.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x10.size a ≤ S128x10.size a
  hwx0_3 : ∀ i : grid0.Coords, EltTy.bits .f32 = 32 ∨ (Rect.block (s := S128x10) S32x10.size (cc0_transform_3 i) (hinb0_3 i)).WholeWords (EltTy.packing .f32)

variable [Facts₀]

abbrev win0_0 : Pipeline.Window sig grid0 :=
  Pipeline.Window.ofSpec (Memref.whole main_arg0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x10x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4096 : Shape := ⟨2, ![128, 4096]⟩
abbrev S128x10x5 : Shape := ⟨3, ![128, 10, 5]⟩
abbrev S128x10x5x1 : Shape := ⟨4, ![128, 10, 5, 1]⟩
abbrev S128x1x1x4096 : Shape := ⟨4, ![128, 1, 1, 4096]⟩
abbrev S128x10x5x4096 : Shape := ⟨4, ![128, 10, 5, 4096]⟩
abbrev S_ : Shape := ⟨0, ![]⟩
abbrev S128x10 : Shape := ⟨2, ![128, 10]⟩

abbrev nBuf : Space → Nat
  | .hbm => 24
  | .vmem => 0
  | .smem => 0
  | _ => 0

abbrev bufTy : (tb : Table) → Fin (tcTables nBuf tb) → BufTy
  | .hbm, ⟨0, _⟩ => ⟨S128x4096, .i32⟩
  | .hbm, ⟨1, _⟩ => ⟨S128x4096, .f32⟩
  | .hbm, ⟨2, _⟩ => ⟨S128x10x5, .i32⟩
  | .hbm, ⟨3, _⟩ => ⟨S128x10x5x1, .i32⟩
  | .hbm, ⟨4, _⟩ => ⟨S128x1x1x4096, .i32⟩
  | .hbm, ⟨5, _⟩ => ⟨S128x10x5x4096, .i32⟩
  | .hbm, ⟨6, _⟩ => ⟨S128x10x5x4096, .i32⟩
  | .hbm, ⟨7, _⟩ => ⟨S128x10x5x4096, .i1⟩
  | .hbm, ⟨8, _⟩ => ⟨S128x1x1x4096, .f32⟩
  | .hbm, ⟨9, _⟩ => ⟨S_, .f32⟩
  | .hbm, ⟨10, _⟩ => ⟨S128x10x5x4096, .f32⟩
  | .hbm, ⟨11, _⟩ => ⟨S128x10x5x4096, .f32⟩
  | .hbm, ⟨12, _⟩ => ⟨S128x10x5x4096, .f32⟩
  | .hbm, ⟨13, _⟩ => ⟨S_, .f32⟩
  | .hbm, ⟨14, _⟩ => ⟨S128x10x5, .f32⟩
  | .hbm, ⟨15, _⟩ => ⟨S_, .f32⟩
  | .hbm, ⟨16, _⟩ => ⟨S128x10, .f32⟩
  | .hbm, ⟨17, _⟩ => ⟨S_, .i32⟩
  | .hbm, ⟨18, _⟩ => ⟨S128x10x5, .i32⟩
  | .hbm, ⟨19, _⟩ => ⟨S128x10x5, .i1⟩
  | .hbm, ⟨20, _⟩ => ⟨S128x10x5, .f32⟩
  | .hbm, ⟨21, _⟩ => ⟨S_, .f32⟩
  | .hbm, ⟨22, _⟩ => ⟨S128x10, .f32⟩
  | .hbm, ⟨23, _⟩ => ⟨S128x10, .f32⟩
  | _, _ => ⟨S128x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S128x10x5_S128x10x5x1_0_1_2 : S128x10x5.BroadcastsInDim S128x10x5x1 (![0, 1, 2] : Fin 3 → Fin S128x10x5x1.rank)
  bcast_S128x4096_S128x1x1x4096_0_3 : S128x4096.BroadcastsInDim S128x1x1x4096 (![0, 3] : Fin 2 → Fin S128x1x1x4096.rank)
  bcast_S128x10x5x1_S128x10x5x4096_0_1_2_3 : S128x10x5x1.BroadcastsInDim S128x10x5x4096 (![0, 1, 2, 3] : Fin 4 → Fin S128x10x5x4096.rank)
  bcast_S128x1x1x4096_S128x10x5x4096_0_1_2_3 : S128x1x1x4096.BroadcastsInDim S128x10x5x4096 (![0, 1, 2, 3] : Fin 4 → Fin S128x10x5x4096.rank)
  bcast_S_S128x10x5x4096 : S_.BroadcastsInDim S128x10x5x4096 (![] : Fin 0 → Fin S128x10x5x4096.rank)
  reducesTo_S128x10x5x4096_S128x10x5_d3 : S128x10x5x4096.ReducesTo [3] S128x10x5
  h_S_ : 0 < S_.numel
  reducesTo_S128x10x5_S128x10_d2 : S128x10x5.ReducesTo [2] S128x10
  bcast_S_S128x10x5 : S_.BroadcastsInDim S128x10x5 (![] : Fin 0 → Fin S128x10x5.rank)

variable [Facts₀]

class Facts : Prop extends Facts₀ where

variable [Facts]
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.LibLaneOps.lean ====
/-
  Sums along the lanes of a matrix, and two casts, read at an index.

  A float sum of an `[a, b]` matrix along its second axis is a vector of length `a` whose entry `p` is, at the exact
  values, the sum over the lane coordinate `q` of the matrix's entry `(p, q)`.  A `[1, 1, a, b]` array viewed as an
  `[a, b]` matrix keeps its row-major order, so the matrix's entry `(p, q)` is the array's entry `(0, 0, p, q)`.  A
  sum over every index of an `[a, 1, 1]` array is the sum over its leading coordinate.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLaneOps

open Idealize.ShloMosaic Idealize.ShloMosaic.ValueIdx

/-- The source index over row `p` with lane `q` inserted is `(p, q)`. -/
theorem lift_lane {a b : ℕ} (h : (⟨2, ![a, b]⟩ : Shape).Reduces [1] ⟨1, ![a]⟩) (p : Fin a) (q : Fin b) :
    h.lift (ix1 p) q = ix2 p q := by
  funext ax
  match ax with
  | ⟨0, _⟩ => rfl
  | ⟨1, _⟩ => rfl

/-- A float sum along the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun q _ => congrArg src (lift_lane h p q))

/-- A `[1, 1, a, b]` array cast to `[a, b]` reads, at `(p, q)`, the operand at `(0, 0, p, q)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An index of a rank-3 shape is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an `[a, 1, 1]` shape is the sum over the leading coordinate. -/
theorem sum_idx3_lead {M : Type*} [AddCommMonoid M] {a : Nat} (f : (⟨3, ![a, 1, 1]⟩ : Shape).Idx → M) :
    ∑ i, f i = ∑ p : Fin a, f (ix3 p (0 : Fin 1) (0 : Fin 1)) := by
  rw [← Equiv.sum_comp (idxEquiv3 (n0 := a) (n1 := 1) (n2 := 1)).symm f, Fintype.sum_prod_type]
  refine Finset.sum_congr rfl fun p _ => ?_
  rw [Fintype.sum_prod_type, Fin.sum_univ_one, Fin.sum_univ_one]
  rfl

end Cert.LibLaneOps

end
-- ==== Proof.Entries.lean ====
/-
  Single entries on the exact values.

  Three facts about one entry of the arrays, read on the extended reals: a selection by an equality test of two words is
  an `if` on their equality (with the test written either way round); the all-zero pattern is the number zero; and the
  test "this word is not the padding word 0", turned into a float, is the number 0 or 1 — whether the one-bit result is
  first widened to 32 bits and converted as a signed integer, or converted directly as an unsigned bit.
-/
import Idealize.ShloMosaic.PureOps.Ideal
import Idealize.ShloMosaic.PureOps.Ideal.Laws
import Idealize.ShloMosaic.Lib.KernelVsHost

noncomputable section

namespace Cert.OptionMean

open Idealize.ShloMosaic

/-- Keeping `x` where two words are equal and `y` elsewhere. -/
theorem select_eq (a b : BitVec 32) (x y : EReal) :
    (Scalar.select (IntOp.cmpi .eq a b) x y : EReal) = if a = b then x else y := by
  show (if BitVec.ofBool (a == b) = 1 then x else y) = _
  by_cases hab : a = b
  · subst hab
    simp
  · rw [beq_eq_false_iff_ne.mpr hab, if_neg (by decide), if_neg hab]

/-- The same with the test written the other way round: equality of words is symmetric. -/
theorem select_eq_symm (a b : BitVec 32) (x y : EReal) :
    (Scalar.select (IntOp.cmpi .eq b a) x y : EReal) = if a = b then x else y := by
  rw [select_eq]
  exact if_congr eq_comm rfl rfl

/-- The all-zero pattern is the number zero. -/
theorem zero_word : (Scalar.ofBits .f32 0x00000000#32 : Ideal .f32) = (0 : EReal) := Ideal.ofBits_zero_f32

/-- "The word is not the padding word", widened to 32 bits and converted as a signed integer, is the number 0 or 1. -/
theorem count_signed (a : BitVec 32) :
    (FloatOps.sitofp .f32 ((IntOp.cmpi .ne a 0#32).setWidth 32) : Ideal .f32) = if a = 0#32 then (0 : EReal) else 1 := by
  show (((((IntOp.cmpi .ne a 0#32).setWidth 32).toInt : ℤ) : ℝ) : EReal) = _
  rw [toInt_setWidth_bit]
  unfold IntOp.cmpi
  by_cases ha : a = 0#32
  · simp [ha]
  · simp [ha]

/-- The same test converted directly, as an unsigned bit, is the same number. -/
theorem count_unsigned (a : BitVec 32) :
    (FloatOps.uitofp .f32 (IntOp.cmpi .ne a 0#32) : Ideal .f32) = if a = 0#32 then (0 : EReal) else 1 := by
  show ((((IntOp.cmpi .ne a 0#32).toNat : ℕ) : ℝ) : EReal) = _
  unfold IntOp.cmpi
  by_cases ha : a = 0#32
  · simp [ha]
  · simp [ha]

end Cert.OptionMean

end
-- ==== Proof.Steps.lean ====
/-
  One option word at a time, read at an index.

  The kernel body treats each of the fifty option words of a row in the same way: it cuts the word's column out of the
  options block, lays it along the document axis, compares it with every document word of the row, keeps the document
  probabilities where the two agree (zero elsewhere), adds them up along the row, and adds one to a count when the word
  is not the padding word zero. Every lemma here reads ONE of those operations at a row `p` of the 32-row block, so that
  a column of the result, however the unrolled body is cut, is reduced to a plain sum by rewriting. The last lemma reads
  the ten columns set side by side.
-/
import proofs.«150515_j7919919694186_2_alg».proof.KernelIdeal
import proofs.«150515_j7919919694186_2_alg».proof.Proof.LibColumnLayout
import proofs.«150515_j7919919694186_2_alg».proof.Proof.LibLaneOps
import proofs.«150515_j7919919694186_2_alg».proof.Proof.Entries
import Idealize.ShloMosaic.Lib.ValueIdx
import Idealize.ShloMosaic.Lib.Pipeline.Value
import Idealize.ShloMosaic.PureOps.Ideal.Laws

noncomputable section

open scoped BigOperators

namespace Cert.OptionMean

open Idealize.ShloMosaic Idealize.ShloMosaic.ValueIdx Cert.KernelIdeal

variable {α : Type}

/-! ## The word's column -/

/-- A slice of the options block at option `o`, word `w` stays inside the block: `o` is one of the ten options. -/
theorem option_lt {o w : Nat} (h : S32x10x5.Slices ![0, o, w] S32x1x1) : o < 10 := h.2 (1 : Fin 3)

/-- … and `w` is one of the five words. -/
theorem word_lt {o w : Nat} (h : S32x10x5.Slices ![0, o, w] S32x1x1) : w < 5 := h.2 (2 : Fin 3)

/-- The `[32, 1, 1]` slice of the options block at option `o`, word `w` holds, in row `p`, the block's entry `(p, o, w)`. -/
theorem slice_apply (x2 : S32x10x5.Idx → α) (o w : Nat) (h : S32x10x5.Slices ![0, o, w] S32x1x1) (p : Fin 32) :
    extractStridedSlice S32x1x1 ![0, o, w] x2 h (ix3 p (0 : Fin 1) (0 : Fin 1))
      = x2 (ix3 p (⟨o, option_lt h⟩ : Fin 10) (⟨w, word_lt h⟩ : Fin 5)) :=
  extractStridedSlice_apply _ x2 h _ _ fun a => by
    match a with
    | ⟨0, _⟩ => show p.val = 0 + p.val; omega
    | ⟨1, _⟩ => show o = o + 0; omega
    | ⟨2, _⟩ => show w = w + 0; omega

/-- A `[32, 1, 1]` array flattened to `[32]` and stood up again as a `[32, 1]` column keeps its row-major order: row `p`
    of the column is the array's entry `(p, 0, 0)`. -/
theorem col_apply (y : S32x1x1.Idx → α) (h1 : S32x1x1.ShapeCasts S32) (h2 : S32.ShapeCasts S32x1) (p : Fin 32) :
    shapeCast S32x1 (shapeCast S32 y h1) h2 (ix2 p (0 : Fin 1)) = y (ix3 p (0 : Fin 1) (0 : Fin 1)) :=
  (Cert.ColumnLayout.shapeCast_a_a1_apply _ h2 p 0).trans
    (shapeCast_apply y h1 _ _ (by
      rw [Shape.rowMajor_val_three, Shape.rowMajor_val_one]
      show (p.val * 1 + 0) * 1 + 0 = p.val
      omega))

/-! ## The sum along a row -/

/-- The sum of a `[32, 4096]` block along its rows, stood up as a column: row `p` of the column is the sum over the
    document positions `l` of the block's entry `(p, l)`. -/
theorem laneSum_apply (src : FVec Ideal S32x4096 .f32) (h : S32x4096.Reduces [1] S32) (hφ : FKind.Formats .f32)
    (hacc : (0x00000000#32 : BitVec 32) = 0x00000000#32) (hc : S32.ShapeCasts S32x1) (p : Fin 32) :
    shapeCast S32x1 (multiReduction .add [1] S32 src 0x00000000#32 h hφ hacc) hc (ix2 p (0 : Fin 1))
      = ∑ l : Fin 4096, src (ix2 p l) :=
  (Cert.ColumnLayout.shapeCast_a_a1_apply _ hc p 0).trans
    (Cert.LibLaneOps.multiReduction_add_lanes_apply src _ h _ _ p)

/-- A column laid along the document axis holds, at `(p, l)`, the column's row `p`. -/
theorem lay_apply (v : S32x1.Idx → α) (h : S32x1.Broadcasts S32x4096) (p : Fin 32) (l : Fin 4096) :
    broadcastTo S32x4096 v h (ix2 p l) = v (ix2 p (0 : Fin 1)) :=
  Cert.ColumnLayout.broadcastTo_a1_ab_apply v h p l

/-- An integer comparison of two arrays is the comparison of their entries. -/
theorem cmpi_apply {s : Shape} {n : Nat} (pr : CmpIPredicate) (x y : IVec s n) (i : s.Idx) :
    cmpi pr x y i = IntOp.cmpi pr (x i) (y i) := rfl

/-! ## A column of the result -/

/-- The `[32, 10]` block put together from ten `[32, 1]` columns side by side holds, at `(p, k)`, row `p` of column `k`:
    the columns before it take up `k` places along the second axis. -/
theorem concat_col_apply (xs : List ((s : Shape) × (s.Idx → α))) (h : Shape.Concatenates (xs.map (·.1)) S32x10 (1 : Fin 2))
    (p : Fin 32) (k : Nat) (hk10 : k < 10) (hk : k < xs.length) (x : S32x1.Idx → α) (hxk : xs[k] = ⟨S32x1, x⟩)
    (hpre : (((xs.take k).map (·.1)).map fun s => if h : s.rank = S32x10.rank then s.size ((1 : Fin 2).cast h.symm) else 0).sum = k) :
    concatenate S32x10 (1 : Fin 2) xs h (ix2 p (⟨k, hk10⟩ : Fin 10)) = x (ix2 p (0 : Fin 1)) :=
  concatenate_apply_piece (t := S32x10) (1 : Fin 2) xs h (ix2 p (⟨k, hk10⟩ : Fin 10)) k hk S32x1 x hxk rfl k hpre (ix2 p (0 : Fin 1))
    (fun b hb => by
      match b with
      | ⟨0, _⟩ => rfl
      | ⟨1, _⟩ => exact absurd rfl hb)
    (by show k + 0 = k; omega)

/-! ### The ten columns, one lemma per column -/

section TenColumns
variable (c0 c1 c2 c3 c4 c5 c6 c7 c8 c9 : S32x1.Idx → α)
  (h : Shape.Concatenates (([⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] : List ((s : Shape) × (s.Idx → α))).map (·.1)) S32x10 (1 : Fin 2))
  (p : Fin 32)

theorem column0 (hk : 0 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨0, hk⟩ : Fin 10)) = c0 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 0 hk hk c0 rfl rfl

theorem column1 (hk : 1 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨1, hk⟩ : Fin 10)) = c1 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 1 hk hk c1 rfl rfl

theorem column2 (hk : 2 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨2, hk⟩ : Fin 10)) = c2 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 2 hk hk c2 rfl rfl

theorem column3 (hk : 3 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨3, hk⟩ : Fin 10)) = c3 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 3 hk hk c3 rfl rfl

theorem column4 (hk : 4 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨4, hk⟩ : Fin 10)) = c4 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 4 hk hk c4 rfl rfl

theorem column5 (hk : 5 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨5, hk⟩ : Fin 10)) = c5 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 5 hk hk c5 rfl rfl

theorem column6 (hk : 6 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨6, hk⟩ : Fin 10)) = c6 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 6 hk hk c6 rfl rfl

theorem column7 (hk : 7 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨7, hk⟩ : Fin 10)) = c7 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 7 hk hk c7 rfl rfl

theorem column8 (hk : 8 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨8, hk⟩ : Fin 10)) = c8 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 8 hk hk c8 rfl rfl

theorem column9 (hk : 9 < 10) :
    concatenate S32x10 (1 : Fin 2) [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h (ix2 p (⟨9, hk⟩ : Fin 10)) = c9 (ix2 p (0 : Fin 1)) :=
  concat_col_apply [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩] h p 9 hk hk c9 rfl rfl

end TenColumns

end Cert.OptionMean

end
-- ==== Proof.Spec.lean ====
/-
  What both programs compute: the mean attention of each option.

  A row holds 4096 document words `d l`, each with a probability `x l`, and ten options of five words each. For one
  option with words `o 0 … o 4` the result is

      ( Σ_w Σ_l [d l = o w] · x l )  /  ( Σ_w [o w ≠ 0] )

  — the probability mass of the document positions that hold one of the option's words, counted once per word, divided
  by the number of the option's words that are not the padding word 0. The quotient is the exact one of the extended
  reals, whatever it is when the count is zero: both programs take the same quotient of the same two numbers, so
  nothing is asked of it.
-/
import Idealize.ShloMosaic.PureOps.Ideal
import Idealize.ShloMosaic.Lib.ValueIdx

noncomputable section

open scoped BigOperators

namespace Cert.OptionMean

open Idealize.ShloMosaic Idealize.ShloMosaic.ValueIdx

/-- The probability mass of the document positions holding the word `v`. -/
def wordMass (d : Fin 4096 → BitVec 32) (x : Fin 4096 → EReal) (v : BitVec 32) : EReal :=
  ∑ l : Fin 4096, if d l = v then x l else 0

/-- One option of one row: the masses of its five words added, over the number of its words that are not padding. -/
def rowMean (d : Fin 4096 → BitVec 32) (x : Fin 4096 → EReal) (o : Fin 5 → BitVec 32) : EReal :=
  Ideal.div (∑ w : Fin 5, wordMass d x (o w)) (∑ w : Fin 5, if o w = 0#32 then (0 : EReal) else 1)

/-- The whole result, `[128, 10]`: entry `(r, q)` is option `q` of row `r`. -/
def mean (di : (⟨2, ![128, 4096]⟩ : Shape).Idx → BitVec 32) (dp : (⟨2, ![128, 4096]⟩ : Shape).Idx → EReal)
    (op : (⟨3, ![128, 10, 5]⟩ : Shape).Idx → BitVec 32) : (⟨2, ![128, 10]⟩ : Shape).Idx → EReal :=
  fun i => rowMean (fun l => di (ix2 (i 0) l)) (fun l => dp (ix2 (i 0) l)) (fun w => op (ix3 (i 0) (i 1) w))

/-- The same over a block of 32 rows, `[32, 10]`. -/
def blockMean (x0 : (⟨2, ![32, 4096]⟩ : Shape).Idx → BitVec 32) (x1 : (⟨2, ![32, 4096]⟩ : Shape).Idx → EReal)
    (x2 : (⟨3, ![32, 10, 5]⟩ : Shape).Idx → BitVec 32) : (⟨2, ![32, 10]⟩ : Shape).Idx → EReal :=
  fun i => rowMean (fun l => x0 (ix2 (i 0) l)) (fun l => x1 (ix2 (i 0) l)) (fun w => x2 (ix3 (i 0) (i 1) w))

/-- Entry `(r, q)` of the whole result, written out. -/
theorem mean_apply (di : (⟨2, ![128, 4096]⟩ : Shape).Idx → BitVec 32) (dp : (⟨2, ![128, 4096]⟩ : Shape).Idx → EReal)
    (op : (⟨3, ![128, 10, 5]⟩ : Shape).Idx → BitVec 32) (r : Fin 128) (q : Fin 10) :
    mean di dp op (ix2 r q)
      = Ideal.div (∑ w : Fin 5, wordMass (fun l => di (ix2 r l)) (fun l => dp (ix2 r l)) (op (ix3 r q w)))
          (∑ w : Fin 5, if op (ix3 r q w) = 0#32 then (0 : EReal) else 1) := rfl

/-- Entry `(p, q)` of a block's result, written out. -/
theorem blockMean_apply (x0 : (⟨2, ![32, 4096]⟩ : Shape).Idx → BitVec 32) (x1 : (⟨2, ![32, 4096]⟩ : Shape).Idx → EReal)
    (x2 : (⟨3, ![32, 10, 5]⟩ : Shape).Idx → BitVec 32) (p : Fin 32) (q : Fin 10) :
    blockMean x0 x1 x2 (ix2 p q)
      = Ideal.div (∑ w : Fin 5, wordMass (fun l => x0 (ix2 p l)) (fun l => x1 (ix2 p l)) (x2 (ix3 p q w)))
          (∑ w : Fin 5, if x2 (ix3 p q w) = 0#32 then (0 : EReal) else 1) := rfl

/-- The five words' terms written out, in the order a left-to-right accumulation adds them. -/
theorem sum_five {M : Type*} [AddCommMonoid M] (f : Fin 5 → M) :
    ∑ w : Fin 5, f w = f 0 + f 1 + f 2 + f 3 + f 4 := Fin.sum_univ_five f

end Cert.OptionMean

end
-- ==== Proof.ColumnTactic.lean ====
/-
  Reading one column of the kernel body.

  A column of sums (or of counts) is an unrolled chain of five steps, one per word of the option, cut into named pieces
  wherever the body's text happened to be divided. Two passes read it at a row: the first opens the named pieces, which
  leaves the chain written out in full; the second pushes the row index through the chain, one operation at a time,
  until only entries of the three input blocks are left.
-/
import proofs.«150515_j7919919694186_2_alg».proof.Proof.Gen.KernelIdeal.Skeleton
import proofs.«150515_j7919919694186_2_alg».proof.Proof.Steps
import proofs.«150515_j7919919694186_2_alg».proof.Proof.Spec

namespace Cert.OptionMean

open Idealize.ShloMosaic Idealize.ShloMosaic.ValueIdx Cert.KernelIdeal Cert.KernelIdeal.Gen

/-- Open every named piece of the body. -/
macro "open_pieces" : tactic => `(tactic| simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111])

/-- Push a row index through the opened chain: every lemma is tried at every node of the term, innermost first, until
    none applies. -/
macro "read_at_row" : tactic => `(tactic| simp (config := { index := false }) only [addf_apply, laneSum_apply, select_apply, cmpi_apply, lay_apply, col_apply, slice_apply, broadcast_apply, extui_apply, sitofp_apply, select_eq, zero_word, count_signed, zero_add])

end Cert.OptionMean
-- ==== Proof.SumsA.lean ====
/-
  The columns of sums, options one to five.

  For each option the kernel adds, starting from zero, the row sums of the document probabilities kept where the
  document word equals the option's first, second, … fifth word. Read at a row this is the sum over the five words of
  the word's mass in the row's document: a sum of five terms written in the order they were added.
-/
import proofs.«150515_j7919919694186_2_alg».proof.Proof.ColumnTactic

noncomputable section

open scoped BigOperators

namespace Cert.OptionMean

open Idealize.ShloMosaic Idealize.ShloMosaic.ValueIdx Cert.KernelIdeal Cert.KernelIdeal.Gen

variable (x0 : Vec Ideal S32x4096 .i32) (x1 : Vec Ideal S32x4096 .f32) (x2 : Vec Ideal S32x10x5 .i32) (p : Fin 32)

/-- The first option's column of sums: in row `p`, the masses of the option's five words, added from zero in order. -/
theorem sum0 :
    (k0_pay10 x0 x1 x2 (k0_pay4 x0 x1 x2) (k0_pay7 x0 x1 x2)) (ix2 p (0 : Fin 1))
      = ∑ w : Fin 5, wordMass (fun l => x0 (ix2 p l)) (fun l => x1 (ix2 p l)) (x2 (ix3 p (0 : Fin 10) w)) := by
  rw [sum_five]
  open_pieces
  read_at_row
  rfl

/-- The second option's column of sums: in row `p`, the masses of the option's five words, added from zero in order. -/
theorem sum1 :
    (k0_pay23 x0 x1 x2 (k0_pay20 x0 x1 x2 (k0_pay12 (F := Ideal)) (k0_pay15 x0 x1 x2))) (ix2 p (0 : Fin 1))
      = ∑ w : Fin 5, wordMass (fun l => x0 (ix2 p l)) (fun l => x1 (ix2 p l)) (x2 (ix3 p (1 : Fin 10) w)) := by
  rw [sum_five]
  open_pieces
  read_at_row
  rfl

/-- The third option's column of sums: in row `p`, the masses of the option's five words, added from zero in order. -/
theorem sum2 :
    (k0_pay33 x0 x1 x2 (k0_pay27 x0 x1 x2) (k0_pay29 x2)) (ix2 p (0 : Fin 1))
      = ∑ w : Fin 5, wordMass (fun l => x0 (ix2 p l)) (fun l => x1 (ix2 p l)) (x2 (ix3 p (2 : Fin 10) w)) := by
  rw [sum_five]
  open_pieces
  read_at_row
  rfl

/-- The fourth option's column of sums: in row `p`, the masses of the option's five words, added from zero in order. -/
theorem sum3 :
    (k0_pay45 x0 x1 x2 (k0_pay40 x0 x1 x2 (k0_pay35 (F := Ideal)) (k0_pay37 x2)) (k0_pay43 x0 x1 x2)) (ix2 p (0 : Fin 1))
      = ∑ w : Fin 5, wordMass (fun l => x0 (ix2 p l)) (fun l => x1 (ix2 p l)) (x2 (ix3 p (3 : Fin 10) w)) := by
  rw [sum_five]
  open_pieces
  read_at_row
  rfl

/-- The fifth option's column of sums: in row `p`, the masses of the option's five words, added from zero in order. -/
theorem sum4 :
    (k0_pay56 x0 x1 x2 (k0_pay48 x0 x1 x2) (k0_pay51 x0 x1 x2)) (ix2 p (0 : Fin 1))
      = ∑ w : Fin 5, wordMass (fun l => x0 (ix2 p l)) (fun l => x1 (ix2 p l)) (x2 (ix3 p (4 : Fin 10) w)) := by
  rw [sum_five]
  open_pieces
  read_at_row
  rfl

end Cert.OptionMean

end
-- ==== Proof.SumsB.lean ====
/-
  The columns of sums, options six to ten.

  For each option the kernel adds, starting from zero, the row sums of the document probabilities kept where the
  document word equals the option's first, second, … fifth word. Read at a row this is the sum over the five words of
  the word's mass in the row's document: a sum of five terms written in the order they were added.
-/
import proofs.«150515_j7919919694186_2_alg».proof.Proof.ColumnTactic

noncomputable section

open scoped BigOperators

namespace Cert.OptionMean

open Idealize.ShloMosaic Idealize.ShloMosaic.ValueIdx Cert.KernelIdeal Cert.KernelIdeal.Gen

variable (x0 : Vec Ideal S32x4096 .i32) (x1 : Vec Ideal S32x4096 .f32) (x2 : Vec Ideal S32x10x5 .i32) (p : Fin 32)

/-- The sixth option's column of sums: in row `p`, the masses of the option's five words, added from zero in order. -/
theorem sum5 :
    (k0_pay67 x0 x1 x2 (k0_pay62 x0 x1 x2) (k0_pay64 x2)) (ix2 p (0 : Fin 1))
      = ∑ w : Fin 5, wordMass (fun l => x0 (ix2 p l)) (fun l => x1 (ix2 p l)) (x2 (ix3 p (5 : Fin 10) w)) := by
  rw [sum_five]
  open_pieces
  read_at_row
  rfl

/-- The seventh option's column of sums: in row `p`, the masses of the option's five words, added from zero in order. -/
theorem sum6 :
    (k0_pay79 (k0_pay75 x0 x1 x2 (k0_pay70 x0 x1 x2) (k0_pay72 x2)) (k0_pay78 x0 x1 x2)) (ix2 p (0 : Fin 1))
      = ∑ w : Fin 5, wordMass (fun l => x0 (ix2 p l)) (fun l => x1 (ix2 p l)) (x2 (ix3 p (6 : Fin 10) w)) := by
  rw [sum_five]
  open_pieces
  read_at_row
  rfl

/-- The eighth option's column of sums: in row `p`, the masses of the option's five words, added from zero in order. -/
theorem sum7 :
    (k0_pay89 x0 x1 x2 (k0_pay83 x0 x1 x2) (k0_pay86 x0 x1 x2)) (ix2 p (0 : Fin 1))
      = ∑ w : Fin 5, wordMass (fun l => x0 (ix2 p l)) (fun l => x1 (ix2 p l)) (x2 (ix3 p (7 : Fin 10) w)) := by
  rw [sum_five]
  open_pieces
  read_at_row
  rfl

/-- The ninth option's column of sums: in row `p`, the masses of the option's five words, added from zero in order. -/
theorem sum8 :
    (k0_pay101 x0 x1 (k0_pay97 x0 x1 x2 (k0_pay93 x0 x1 x2)) (k0_pay99 x2)) (ix2 p (0 : Fin 1))
      = ∑ w : Fin 5, wordMass (fun l => x0 (ix2 p l)) (fun l => x1 (ix2 p l)) (x2 (ix3 p (8 : Fin 10) w)) := by
  rw [sum_five]
  open_pieces
  read_at_row
  rfl

/-- The tenth option's column of sums: in row `p`, the masses of the option's five words, added from zero in order. -/
theorem sum9 :
    (k0_pay111 x0 x1 x2 (k0_pay105 x0 x1 x2) (k0_pay107 x2)) (ix2 p (0 : Fin 1))
      = ∑ w : Fin 5, wordMass (fun l => x0 (ix2 p l)) (fun l => x1 (ix2 p l)) (x2 (ix3 p (9 : Fin 10) w)) := by
  rw [sum_five]
  open_pieces
  read_at_row
  rfl

end Cert.OptionMean

end
-- ==== Proof.Counts.lean ====
/-
  The columns of counts.

  Beside each sum the kernel keeps a count, started at zero, to which every word of the option adds one unless it is
  the padding word 0. Read at a row this is the number of the option's five words that are not padding.
-/
import proofs.«150515_j7919919694186_2_alg».proof.Proof.ColumnTactic

noncomputable section

open scoped BigOperators

namespace Cert.OptionMean

open Idealize.ShloMosaic Idealize.ShloMosaic.ValueIdx Cert.KernelIdeal Cert.KernelIdeal.Gen

variable (x2 : Vec Ideal S32x10x5 .i32) (p : Fin 32)

/-- The first option's column of counts: in row `p`, one for each of the option's five words that is not padding. -/
theorem cnt0 :
    (k0_pay11 x2 (k0_pay5 x2) (k0_pay6 x2)) (ix2 p (0 : Fin 1))
      = ∑ w : Fin 5, if x2 (ix3 p (0 : Fin 10) w) = 0#32 then (0 : EReal) else 1 := by
  rw [sum_five]
  open_pieces
  read_at_row
  rfl

/-- The second option's column of counts: in row `p`, one for each of the option's five words that is not padding. -/
theorem cnt1 :
    (k0_pay24 x2 (k0_pay18 x2 (k0_pay13 (F := Ideal)) (k0_pay14 x2)) (k0_pay21 x2)) (ix2 p (0 : Fin 1))
      = ∑ w : Fin 5, if x2 (ix3 p (1 : Fin 10) w) = 0#32 then (0 : EReal) else 1 := by
  rw [sum_five]
  open_pieces
  read_at_row
  rfl

/-- The third option's column of counts: in row `p`, one for each of the option's five words that is not padding. -/
theorem cnt2 :
    (k0_pay34 x2 (k0_pay28 x2) (k0_pay29 x2)) (ix2 p (0 : Fin 1))
      = ∑ w : Fin 5, if x2 (ix3 p (2 : Fin 10) w) = 0#32 then (0 : EReal) else 1 := by
  rw [sum_five]
  open_pieces
  read_at_row
  rfl

/-- The fourth option's column of counts: in row `p`, one for each of the option's five words that is not padding. -/
theorem cnt3 :
    (k0_pay46 x2 (k0_pay41 x2 (k0_pay36 (F := Ideal)) (k0_pay37 x2)) (k0_pay42 x2)) (ix2 p (0 : Fin 1))
      = ∑ w : Fin 5, if x2 (ix3 p (3 : Fin 10) w) = 0#32 then (0 : EReal) else 1 := by
  rw [sum_five]
  open_pieces
  read_at_row
  rfl

/-- The fifth option's column of counts: in row `p`, one for each of the option's five words that is not padding. -/
theorem cnt4 :
    (k0_pay58 (k0_pay54 x2 (k0_pay49 x2) (k0_pay50 x2)) (k0_pay57 x2)) (ix2 p (0 : Fin 1))
      = ∑ w : Fin 5, if x2 (ix3 p (4 : Fin 10) w) = 0#32 then (0 : EReal) else 1 := by
  rw [sum_five]
  open_pieces
  read_at_row
  rfl

/-- The sixth option's column of counts: in row `p`, one for each of the option's five words that is not padding. -/
theorem cnt5 :
    (k0_pay68 x2 (k0_pay63 x2) (k0_pay64 x2)) (ix2 p (0 : Fin 1))
      = ∑ w : Fin 5, if x2 (ix3 p (5 : Fin 10) w) = 0#32 then (0 : EReal) else 1 := by
  rw [sum_five]
  open_pieces
  read_at_row
  rfl

/-- The seventh option's column of counts: in row `p`, one for each of the option's five words that is not padding. -/
theorem cnt6 :
    (k0_pay80 (k0_pay76 x2 (k0_pay71 x2) (k0_pay72 x2)) (k0_pay77 x2)) (ix2 p (0 : Fin 1))
      = ∑ w : Fin 5, if x2 (ix3 p (6 : Fin 10) w) = 0#32 then (0 : EReal) else 1 := by
  rw [sum_five]
  open_pieces
  read_at_row
  rfl

/-- The eighth option's column of counts: in row `p`, one for each of the option's five words that is not padding. -/
theorem cnt7 :
    (k0_pay90 x2 (k0_pay84 x2) (k0_pay85 x2)) (ix2 p (0 : Fin 1))
      = ∑ w : Fin 5, if x2 (ix3 p (7 : Fin 10) w) = 0#32 then (0 : EReal) else 1 := by
  rw [sum_five]
  open_pieces
  read_at_row
  rfl

/-- The ninth option's column of counts: in row `p`, one for each of the option's five words that is not padding. -/
theorem cnt8 :
    (k0_pay102 (k0_pay98 x2 (k0_pay91 (F := Ideal)) (k0_pay92 x2) 0#32) (k0_pay99 x2)) (ix2 p (0 : Fin 1))
      = ∑ w : Fin 5, if x2 (ix3 p (8 : Fin 10) w) = 0#32 then (0 : EReal) else 1 := by
  rw [sum_five]
  open_pieces
  read_at_row
  rfl

/-- The tenth option's column of counts. Its last step is written out: the body's final piece adds it just before it sets
    the ten columns side by side. -/
theorem cnt9 (hlt : 1 < 32) :
    (addf (k0_pay109 x2 (k0_pay106 x2) (k0_pay107 x2))
        (sitofp .f32 (extui 32 (cmpi .ne (k0_pay110 x2) (broadcast S32x1 0#32)) hlt))) (ix2 p (0 : Fin 1))
      = ∑ w : Fin 5, if x2 (ix3 p (9 : Fin 10) w) = 0#32 then (0 : EReal) else 1 := by
  rw [sum_five]
  open_pieces
  read_at_row
  rfl

end Cert.OptionMean

end
-- ==== Proof.Body.lean ====
/-
  What the kernel body leaves in the output's staging buffer.

  The body stores once, through the whole `[32, 10]` buffer: the quotient, entry by entry, of the ten columns of sums set
  side by side by the ten columns of counts set side by side. Entry `(p, q)` of the stored value is therefore the sum
  column of option `q` at row `p` over the count column of option `q` at row `p`: `blockMean` of the three input blocks.
-/
import proofs.«150515_j7919919694186_2_alg».proof.Proof.Gen.KernelIdeal.Frame
import proofs.«150515_j7919919694186_2_alg».proof.Proof.SumsA
import proofs.«150515_j7919919694186_2_alg».proof.Proof.SumsB
import proofs.«150515_j7919919694186_2_alg».proof.Proof.Counts

noncomputable section

open scoped BigOperators

namespace Cert.OptionMean

open Idealize.ShloMosaic Idealize.ShloMosaic.ValueIdx Cert.KernelIdeal Cert.KernelIdeal.Gen

/-- The offsets of a rectangle that starts at the origin of a two-axis buffer. -/
theorem origin2 : (![0, 0] : Fin 2 → Nat) = fun _ => 0 := funext fun a => by fin_cases a <;> rfl

/-- … and of a three-axis buffer. -/
theorem origin3 : (![0, 0, 0] : Fin 3 → Nat) = fun _ => 0 := funext fun a => by fin_cases a <;> rfl

/-- After the body the output's staging buffer holds the mean attention of each option of each of the block's 32 rows. -/
theorem out_eq (x0 : Vec Ideal S32x4096 .i32) (x1 : Vec Ideal S32x4096 .f32) (x2 : Vec Ideal S32x10x5 .i32) :
    out0_3 (F := Ideal) x0 x1 x2 = blockMean x0 x1 x2 := by
  unfold out0_3
  rw [View.canon_unit_zero origin2]
  rw [View.ld_unit_zero (S := S32x4096) origin2, View.ld_unit_zero (S := S32x4096) origin2,
    View.ld_unit_zero (S := S32x10x5) origin3]
  funext i
  obtain ⟨p, q, rfl⟩ : ∃ (p : Fin 32) (q : Fin 10), i = ix2 p q := ⟨i 0, i 1, eq_ix2 i⟩
  rw [blockMean_apply]
  simp only [k0_pay1]
  rw [divf_apply]
  refine congrArg₂ Ideal.div ?_ ?_
  · match q with
    | ⟨0, _⟩ => exact (column0 _ _ _ _ _ _ _ _ _ _ _ p _).trans (sum0 x0 x1 x2 p)
    | ⟨1, _⟩ => exact (column1 _ _ _ _ _ _ _ _ _ _ _ p _).trans (sum1 x0 x1 x2 p)
    | ⟨2, _⟩ => exact (column2 _ _ _ _ _ _ _ _ _ _ _ p _).trans (sum2 x0 x1 x2 p)
    | ⟨3, _⟩ => exact (column3 _ _ _ _ _ _ _ _ _ _ _ p _).trans (sum3 x0 x1 x2 p)
    | ⟨4, _⟩ => exact (column4 _ _ _ _ _ _ _ _ _ _ _ p _).trans (sum4 x0 x1 x2 p)
    | ⟨5, _⟩ => exact (column5 _ _ _ _ _ _ _ _ _ _ _ p _).trans (sum5 x0 x1 x2 p)
    | ⟨6, _⟩ => exact (column6 _ _ _ _ _ _ _ _ _ _ _ p _).trans (sum6 x0 x1 x2 p)
    | ⟨7, _⟩ => exact (column7 _ _ _ _ _ _ _ _ _ _ _ p _).trans (sum7 x0 x1 x2 p)
    | ⟨8, _⟩ => exact (column8 _ _ _ _ _ _ _ _ _ _ _ p _).trans (sum8 x0 x1 x2 p)
    | ⟨9, _⟩ => exact (column9 _ _ _ _ _ _ _ _ _ _ _ p _).trans (sum9 x0 x1 x2 p)
  · match q with
    | ⟨0, _⟩ => exact (column0 _ _ _ _ _ _ _ _ _ _ _ p _).trans (cnt0 x2 p)
    | ⟨1, _⟩ => exact (column1 _ _ _ _ _ _ _ _ _ _ _ p _).trans (cnt1 x2 p)
    | ⟨2, _⟩ => exact (column2 _ _ _ _ _ _ _ _ _ _ _ p _).trans (cnt2 x2 p)
    | ⟨3, _⟩ => exact (column3 _ _ _ _ _ _ _ _ _ _ _ p _).trans (cnt3 x2 p)
    | ⟨4, _⟩ => exact (column4 _ _ _ _ _ _ _ _ _ _ _ p _).trans (cnt4 x2 p)
    | ⟨5, _⟩ => exact (column5 _ _ _ _ _ _ _ _ _ _ _ p _).trans (cnt5 x2 p)
    | ⟨6, _⟩ => exact (column6 _ _ _ _ _ _ _ _ _ _ _ p _).trans (cnt6 x2 p)
    | ⟨7, _⟩ => exact (column7 _ _ _ _ _ _ _ _ _ _ _ p _).trans (cnt7 x2 p)
    | ⟨8, _⟩ => exact (column8 _ _ _ _ _ _ _ _ _ _ _ p _).trans (cnt8 x2 p)
    | ⟨9, _⟩ => exact (column9 _ _ _ _ _ _ _ _ _ _ _ p _).trans (cnt9 x2 p _)

end Cert.OptionMean

end
-- ==== Proof.Blocks.lean ====
/-
  From the blocks to the whole result.

  The launch cuts the 128 rows into four blocks of 32: at grid point `t` every window — the document words, the document
  probabilities, the options, and the result — is at rows `32 t … 32 t + 31` of its array, all of its other axes whole.
  The mean attention of an option of a row depends on that row alone, so what point `t` writes back, `blockMean` of the
  three input blocks, is rows `32 t … 32 t + 31` of `mean` of the three argument arrays; and the four blocks cover the
  result array, row `r` lying in the block of point `r / 32`. Hence the result array ends holding `mean` of the arguments.
-/
import proofs.«150515_j7919919694186_2_alg».proof.Proof.Gen.KernelIdeal.Value
import proofs.«150515_j7919919694186_2_alg».proof.Proof.Body
import Idealize.ShloMosaic.Lib.Pipeline.Value

noncomputable section

open scoped BigOperators

namespace Cert.OptionMean.Kernel

open Idealize.ShloMosaic Idealize.ShloMosaic.TcCoe Idealize.SL.Sem Idealize.ShloMosaic.ValueIdx
open Idealize.ShloMosaic.Pipeline (Dat)
open Cert.KernelIdeal Cert.KernelIdeal.Gen Cert.OptionMean

variable (m : (ℓ : Loc nD τ sig) → Buf (Elt Ideal) ℓ) (ρ : Dev nD → PrngReg)

/-- The result: the mean attention of each option, of the three argument arrays as launched. -/
abbrev result (c : Dev nD) : Buf (Elt Ideal) ((c : Thread nD τ).loc main_v0) :=
  mean (m ((c : Thread nD τ).loc main_arg0)) (m ((c : Thread nD τ).loc main_arg1)) (m ((c : Thread nD τ).loc main_arg2))

/-- The index maps over the four grid points: every window's block index is the point's number on the row axis and
    zero on every other axis. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- There are four grid points. -/
theorem point_lt (t : Fin cfg0.N) : t.val < 4 := lt_of_lt_of_eq t.isLt N_0

/-- Row `p` of the block at point `t` is row `32 t + p` of the array. -/
def blockRow (t : Fin cfg0.N) (p : Fin 32) : Fin 128 :=
  ⟨32 * t.val + p.val, by have := point_lt t; have := p.isLt; omega⟩

/-- The document-word block at point `t`, at `(p, l)`, is the argument at `(32 t + p, l)`. -/
theorem words_apply (c : Dev nD) (t : Fin cfg0.N) (p : Fin 32) (l : Fin 4096) :
    (iblk m c 0 t : Vec Ideal S32x4096 .i32) (ix2 p l)
      = (m ((c : Thread nD τ).loc main_arg0) : S128x4096.Idx → BitVec 32) (ix2 (blockRow t p) l) := by
  obtain ⟨h0, h1, -⟩ := index_facts t
  unfold iblk
  rw [View.read_apply]
  show V m c main_arg0 _ = m (c.tc.loc main_arg0) _
  unfold V
  congr 1
  funext a
  apply Fin.ext
  match a with
  | ⟨0, _⟩ => show win0_0.index t (0 : Fin 2) * 32 + 1 * p.val = 32 * t.val + p.val; rw [h0]; omega
  | ⟨1, _⟩ => show win0_0.index t (1 : Fin 2) * 4096 + 1 * l.val = l.val; rw [h1]; omega

/-- The document-probability block at point `t`, at `(p, l)`, is the argument at `(32 t + p, l)`. -/
theorem probabilities_apply (c : Dev nD) (t : Fin cfg0.N) (p : Fin 32) (l : Fin 4096) :
    (iblk m c 1 t : Vec Ideal S32x4096 .f32) (ix2 p l)
      = (m ((c : Thread nD τ).loc main_arg1) : S128x4096.Idx → EReal) (ix2 (blockRow t p) l) := by
  obtain ⟨-, -, h0, h1, -⟩ := index_facts t
  unfold iblk
  rw [View.read_apply]
  show V m c main_arg1 _ = m (c.tc.loc main_arg1) _
  unfold V
  congr 1
  funext a
  apply Fin.ext
  match a with
  | ⟨0, _⟩ => show win0_1.index t (0 : Fin 2) * 32 + 1 * p.val = 32 * t.val + p.val; rw [h0]; omega
  | ⟨1, _⟩ => show win0_1.index t (1 : Fin 2) * 4096 + 1 * l.val = l.val; rw [h1]; omega

/-- The options block at point `t`, at `(p, q, w)`, is the argument at `(32 t + p, q, w)`. -/
theorem options_apply (c : Dev nD) (t : Fin cfg0.N) (p : Fin 32) (q : Fin 10) (w : Fin 5) :
    (iblk m c 2 t : Vec Ideal S32x10x5 .i32) (ix3 p q w)
      = (m ((c : Thread nD τ).loc main_arg2) : S128x10x5.Idx → BitVec 32) (ix3 (blockRow t p) q w) := by
  obtain ⟨-, -, -, -, h0, h1, h2, -⟩ := index_facts t
  unfold iblk
  rw [View.read_apply]
  show V m c main_arg2 _ = m (c.tc.loc main_arg2) _
  unfold V
  congr 1
  funext a
  apply Fin.ext
  match a with
  | ⟨0, _⟩ => show win0_2.index t (0 : Fin 3) * 32 + 1 * p.val = 32 * t.val + p.val; rw [h0]; omega
  | ⟨1, _⟩ => show win0_2.index t (1 : Fin 3) * 10 + 1 * q.val = q.val; rw [h1]; omega
  | ⟨2, _⟩ => show win0_2.index t (2 : Fin 3) * 5 + 1 * w.val = w.val; rw [h2]; omega

/-- What point `t` writes back is the result array's block at `t`: rows `32 t … 32 t + 31` of `mean` of the arguments. -/
theorem flushed_eq (c : Dev nD) (t : Fin cfg0.N) :
    (dats m 0 c).flushed 3 t = ((cfg0.win 3).blk t).view.read (Elt Ideal) (result m c) := by
  rw [Cert.KernelIdeal.Value.flushed3, out_eq]
  obtain ⟨-, -, -, -, -, -, -, h0, h1⟩ := index_facts t
  funext j
  obtain ⟨p, q, rfl⟩ : ∃ (p : Fin 32) (q : Fin 10), j = ix2 p q := ⟨j 0, j 1, eq_ix2 j⟩
  show blockMean (iblk m c 0 t) (iblk m c 1 t) (iblk m c 2 t) (ix2 p q)
      = result m c (((cfg0.win 3).blk t).view.emb (ix2 p q))
  have he : ((cfg0.win 3).blk t).view.emb (ix2 p q) = ix2 (blockRow t p) q := by
    funext a
    apply Fin.ext
    match a with
    | ⟨0, _⟩ => show win0_3.index t (0 : Fin 2) * 32 + 1 * p.val = 32 * t.val + p.val; rw [h0]; omega
    | ⟨1, _⟩ => show win0_3.index t (1 : Fin 2) * 10 + 1 * q.val = q.val; rw [h1]; omega
  rw [he]
  show blockMean (iblk m c 0 t) (iblk m c 1 t) (iblk m c 2 t) (ix2 p q)
      = mean (m ((c : Thread nD τ).loc main_arg0)) (m ((c : Thread nD τ).loc main_arg1)) (m ((c : Thread nD τ).loc main_arg2))
          (ix2 (blockRow t p) q)
  rw [mean_apply, blockMean_apply]
  unfold wordMass
  simp only [words_apply, probabilities_apply, options_apply]

/-- Every index of the result array lies in the block of the point its row belongs to. -/
theorem covered (i : S128x10.Idx) :
    ∃ t : Fin cfg0.N, (cfg0.win 3).flush t = true ∧ i ∈ ((cfg0.win 3).blk t).view.set := by
  have hi0 : (i 0).val < 128 := (i 0).isLt
  have hi1 : (i 1).val < 10 := (i 1).isLt
  obtain ⟨t, ht⟩ : ∃ t : Fin cfg0.N, t.val = (i 0).val / 32 :=
    ⟨⟨(i 0).val / 32, by rw [show cfg0.N = 4 from N_0]; omega⟩, rfl⟩
  obtain ⟨-, -, -, -, -, -, -, h0, h1⟩ := index_facts t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 32 ≤ (i 0).val ∧ (i 0).val < win0_3.index t (0 : Fin 2) * 32 + 32
    rw [h0, ht]; omega
  | ⟨1, _⟩ =>
    show win0_3.index t (1 : Fin 2) * 10 ≤ (i 1).val ∧ (i 1).val < win0_3.index t (1 : Fin 2) * 10 + 10
    rw [h1]; omega

/-- So the result array ends holding `mean` of the arguments. -/
theorem final (c : Dev nD) : (dats m 0 c).arrAt 3 cfg0.N = result m c :=
  (dats m 0 c).arrAt_eq_of_cover 3 (result m c) (fun t _ => flushed_eq m c t) covered

/-- The kernel's run, read: the result array at `mean` of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.OptionMean.Kernel

end
-- ==== Proof.Reference.lean ====
/-
  The reference computes the mean attention of each option.

  The reference lays the options out as `[128, 10, 5, 1]` and the document words and probabilities as `[128, 1, 1, 4096]`,
  repeats both to `[128, 10, 5, 4096]`, keeps the probability where the option word equals the document word (zero
  elsewhere), sums over the document axis and then over the five words, and divides by the sum over the five words of
  "the word is not 0" converted to a float. Each stage read at an index is one entry of its operand at an index that the
  repetitions only copy coordinates into, so entry `(r, q)` of the result is `rowMean` of row `r`'s document and of
  option `q`'s words. Each of the two host sums starts from the all-zero pattern, which is the number zero.
-/
import proofs.«150515_j7919919694186_2_alg».proof.Proof.Gen.ReferenceIdeal.Read
import proofs.«150515_j7919919694186_2_alg».proof.Proof.Spec
import proofs.«150515_j7919919694186_2_alg».proof.Proof.Entries
import Idealize.ShloMosaic.Lib.ValueIdx

noncomputable section

open scoped BigOperators

namespace Cert.OptionMean.Reference

open Idealize.ShloMosaic Idealize.ShloMosaic.ValueIdx Cert.ReferenceIdeal Cert.ReferenceIdeal.Read Cert.OptionMean

variable (r : Fin 128) (q : Fin 10) (w : Fin 5) (l : Fin 4096)

/-! ## The indices the stages read: coordinates copied, unit axes at zero -/

theorem at_word : idx_main_v8 (ix2 r q) w = ix3 r q w :=
  funext fun a => Fin.ext (by match a with | ⟨0, _⟩ => rfl | ⟨1, _⟩ => rfl | ⟨2, _⟩ => rfl)

theorem at_word' : idx_main_v12 (ix2 r q) w = ix3 r q w :=
  funext fun a => Fin.ext (by match a with | ⟨0, _⟩ => rfl | ⟨1, _⟩ => rfl | ⟨2, _⟩ => rfl)

theorem at_position : idx_main_v7 (ix3 r q w) l = ix4 r q w l :=
  funext fun a => Fin.ext (by match a with | ⟨0, _⟩ => rfl | ⟨1, _⟩ => rfl | ⟨2, _⟩ => rfl | ⟨3, _⟩ => rfl)

theorem option_word : idx_main_v0 (idx_main_v2 (ix4 r q w l)) = ix3 r q w :=
  funext fun a => Fin.ext (by match a with | ⟨0, _⟩ => rfl | ⟨1, _⟩ => rfl | ⟨2, _⟩ => rfl)

theorem document_word : idx_main_v1 (idx_main_v3 (ix4 r q w l)) = ix2 r l :=
  funext fun a => Fin.ext (by match a with | ⟨0, _⟩ => rfl | ⟨1, _⟩ => rfl)

theorem document_probability : idx_main_v5 (idx_main_call0_v0 (ix4 r q w l)) = ix2 r l :=
  funext fun a => Fin.ext (by match a with | ⟨0, _⟩ => rfl | ⟨1, _⟩ => rfl)

/-! ## The reference's result -/

/-- The kept value at `(r, q, w, l)`: the probability of document position `l` of row `r` if its word is option `q`'s word
    `w`, zero otherwise. -/
theorem kept_apply (x0 : (⟨S128x4096, .i32⟩ : BufTy).Contents (Elt Ideal)) (x1 : (⟨S128x4096, .f32⟩ : BufTy).Contents (Elt Ideal))
    (x2 : (⟨S128x10x5, .i32⟩ : BufTy).Contents (Elt Ideal)) :
    val_main_v6 (F := Ideal) x0 x1 x2 (ix4 r q w l)
      = if x0 (ix2 r l) = x2 (ix3 r q w) then (x1 (ix2 r l) : EReal) else 0 := by
  rw [val_main_v6_apply, val_main_v4_apply, val_main_v2_apply, val_main_v0_apply, val_main_v3_apply, val_main_v1_apply,
    val_main_call0_v0_apply, val_main_v5_apply, val_main_call0_v1_apply, val_main_cst_apply,
    option_word, document_word, document_probability]
  exact (select_eq_symm _ _ _ _).trans (if_congr Iff.rfl rfl zero_word)

/-- The count term at `(r, q, w)`: one unless option `q`'s word `w` is the padding word. -/
theorem counted_apply (x2 : (⟨S128x10x5, .i32⟩ : BufTy).Contents (Elt Ideal)) :
    val_main_v11 (F := Ideal) x2 (ix3 r q w) = if x2 (ix3 r q w) = 0#32 then (0 : EReal) else 1 := by
  rw [val_main_v11_apply, val_main_v10_apply, val_main_v9_apply, val_main_c_apply]
  exact count_unsigned _

/-- The reference's result array is `mean` of its three arguments. -/
theorem result_eq (x0 : (⟨S128x4096, .i32⟩ : BufTy).Contents (Elt Ideal)) (x1 : (⟨S128x4096, .f32⟩ : BufTy).Contents (Elt Ideal))
    (x2 : (⟨S128x10x5, .i32⟩ : BufTy).Contents (Elt Ideal)) :
    val_main_v13 (F := Ideal) x0 x1 x2 = mean x0 x1 x2 := by
  funext i
  obtain ⟨r, q, rfl⟩ : ∃ (r : Fin 128) (q : Fin 10), i = ix2 r q := ⟨i 0, i 1, eq_ix2 i⟩
  rw [val_main_v13_apply, val_main_v8_apply, val_main_v12_apply, val_main_cst_1_apply, val_main_cst_2_apply]
  show Ideal.div _ _ = Ideal.div _ _
  refine congrArg₂ Ideal.div ?_ ?_
  · rw [show (FloatOps.ofBits .f32 0x00000000#32 : Ideal .f32) = (0 : EReal) from zero_word, zero_add]
    refine Finset.sum_congr rfl fun w _ => ?_
    rw [at_word, val_main_v7_apply, val_main_cst_0_apply,
      show (FloatOps.ofBits .f32 0x00000000#32 : Ideal .f32) = (0 : EReal) from zero_word, zero_add]
    refine Finset.sum_congr rfl fun l _ => ?_
    rw [at_position, kept_apply]
  · rw [show (FloatOps.ofBits .f32 0x00000000#32 : Ideal .f32) = (0 : EReal) from zero_word, zero_add]
    refine Finset.sum_congr rfl fun w _ => ?_
    rw [at_word', counted_apply]

end Cert.OptionMean.Reference

end
-- ==== Proof.lean ====
/-
  The kernel and its reference compute the same mean attention of each option.

  Inputs: for each of 128 rows, 4096 document words with a probability each, and ten options of five words. For one
  option of one row, both programs form

      ( Σ_w Σ_l [document word l = option word w] · probability l )  /  ( Σ_w [option word w ≠ 0] ).

  The reference does it in one piece over a `[128, 10, 5, 4096]` comparison. The kernel works on blocks of 32 rows and,
  inside a block, one option word at a time: it adds the five words' row sums onto a zero start, counts the words that
  are not the padding word, sets the ten options' columns side by side and divides. On the extended reals the two are
  the same function of the arguments, entry by entry: a sum of five terms is the same in whichever grouping it is
  added, adding onto zero changes nothing, the one-bit test "not padding" converts to the number 0 or 1 by either
  conversion, and both programs take the same exact quotient of the same numerator and denominator. None of this uses
  that the probabilities are finite, so the precondition is never opened.

  `Proof/Spec.lean` states the function; `Proof/Reference.lean` reads the reference's run down to it;
  `Proof/Steps.lean`, `SumsA`, `SumsB`, `Counts` and `Body` read the kernel body down to it on a block, and
  `Proof/Blocks.lean` carries the four blocks to the whole array. The frames are the generated ones, and the kernel's
  idealization rewrote nothing.
-/
import proofs.«150515_j7919919694186_2_alg».proof.Defs
import proofs.«150515_j7919919694186_2_alg».proof.Proof.Gen.Kernel
import proofs.«150515_j7919919694186_2_alg».proof.Proof.Gen.Kernel.Skeleton
import proofs.«150515_j7919919694186_2_alg».proof.Proof.Gen.Kernel.Launch
import proofs.«150515_j7919919694186_2_alg».proof.Proof.Gen.Kernel.Points
import proofs.«150515_j7919919694186_2_alg».proof.Proof.Gen.Kernel.Frame
import proofs.«150515_j7919919694186_2_alg».proof.Proof.Gen.KernelIdeal
import proofs.«150515_j7919919694186_2_alg».proof.Proof.Gen.KernelIdeal.Skeleton
import proofs.«150515_j7919919694186_2_alg».proof.Proof.Gen.KernelIdeal.Launch
import proofs.«150515_j7919919694186_2_alg».proof.Proof.Gen.KernelIdeal.Points
import proofs.«150515_j7919919694186_2_alg».proof.Proof.Gen.KernelIdeal.Frame
import proofs.«150515_j7919919694186_2_alg».proof.Proof.Gen.ReferenceIdeal
import proofs.«150515_j7919919694186_2_alg».proof.Proof.Gen.Pre_finite_inputs
import proofs.«150515_j7919919694186_2_alg».proof.Proof.Gen.KernelIdeal.Value
import proofs.«150515_j7919919694186_2_alg».proof.Proof.Gen.ReferenceIdeal.Run
import proofs.«150515_j7919919694186_2_alg».proof.Proof.Gen.ReferenceIdeal.Read
import proofs.«150515_j7919919694186_2_alg».proof.Proof.Blocks
import proofs.«150515_j7919919694186_2_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the exact values. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the exact values rewrote none of its operations: there is nothing to preserve. -/
theorem preserves : Cert.preserves_Kernel_KernelIdeal := trivial

/-- From memories that agree on the three arguments, both programs end with the result array at the mean attention of
    each option: the kernel's four blocks of it, the reference's whole array of it. -/
theorem algebraic : Cert.algebraic_KernelIdeal_ReferenceIdeal := by
  intro m ρ m' ρ' _ hagree
  refine ⟨fun c => Cert.OptionMean.Kernel.result m c, Cert.OptionMean.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.OptionMean.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
